-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel

variable [Facts]

def fn {F : FTy → Type} [FloatOps F] (main_arg0 : FVec F S65536x256 .f32) (main_arg1 : FVec F S65536x256 .f32) (main_arg2 : FVec F S65536x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  main_v13
-- ==== Kernel.lean ====
abbrev S65536x256 : Shape := ⟨2, ![65536, 256]⟩
abbrev S2x1x1 : Shape := ⟨3, ![2, 1, 1]⟩
abbrev S4096x256 : Shape := ⟨2, ![4096, 256]⟩
abbrev S1x1x1 : Shape := ⟨3, ![1, 1, 1]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S2x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S1x1x1, .f32⟩
  | .local _ .vmem, ⟨7, _⟩ => ⟨S1x1x1, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  reduces_S4096x1_S1 : S4096x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S65536x256.size a
  hwx0_0 : ∀ i : grid0.Coords, EltTy.bits .f32 = 32 ∨ (Rect.block (s := S65536x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S65536x256.size a
  hwx0_1 : ∀ i : grid0.Coords, EltTy.bits .f32 = 32 ∨ (Rect.block (s := S65536x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S65536x256.size a
  hwx0_2 : ∀ i : grid0.Coords, EltTy.bits .f32 = 32 ∨ (Rect.block (s := S65536x256) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x256 : Shape := ⟨2, ![65536, 256]⟩
abbrev S_ : Shape := ⟨0, ![]⟩
abbrev S65536 : Shape := ⟨1, ![65536]⟩

abbrev nBuf : Space → Nat
  | .hbm => 59
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S65536x256, .f32⟩
  | .hbm, ⟨4, _⟩ => ⟨S65536x256, .f32⟩
  | .hbm, ⟨5, _⟩ => ⟨S_, .f32⟩
  | .hbm, ⟨6, _⟩ => ⟨S65536, .f32⟩
  | .hbm, ⟨7, _⟩ => ⟨S65536, .f32⟩
  | .hbm, ⟨8, _⟩ => ⟨S65536x256, .f32⟩
  | .hbm, ⟨9, _⟩ => ⟨S65536x256, .f32⟩
  | .hbm, ⟨10, _⟩ => ⟨S_, .f32⟩
  | .hbm, ⟨11, _⟩ => ⟨S65536, .f32⟩
  | .hbm, ⟨12, _⟩ => ⟨S65536, .f32⟩
  | .hbm, ⟨13, _⟩ => ⟨S65536x256, .f32⟩
  | .hbm, ⟨14, _⟩ => ⟨S65536x256, .f32⟩
  | .hbm, ⟨15, _⟩ => ⟨S_, .f32⟩
  | .hbm, ⟨16, _⟩ => ⟨S65536, .f32⟩
  | .hbm, ⟨17, _⟩ => ⟨S65536, .f32⟩
  | .hbm, ⟨18, _⟩ => ⟨S_, .f32⟩
  | .hbm, ⟨19, _⟩ => ⟨S65536, .f32⟩
  | .hbm, ⟨20, _⟩ => ⟨S65536, .f32⟩
  | .hbm, ⟨21, _⟩ => ⟨S65536, .f32⟩
  | .hbm, ⟨22, _⟩ => ⟨S_, .f32⟩
  | .hbm, ⟨23, _⟩ => ⟨S65536, .f32⟩
  | .hbm, ⟨24, _⟩ => ⟨S65536, .f32⟩
  | .hbm, ⟨25, _⟩ => ⟨S_, .f32⟩
  | .hbm, ⟨26, _⟩ => ⟨S65536, .f32⟩
  | .hbm, ⟨27, _⟩ => ⟨S65536, .f32⟩
  | .hbm, ⟨28, _⟩ => ⟨S_, .f32⟩
  | .hbm, ⟨29, _⟩ => ⟨S65536, .f32⟩
  | .hbm, ⟨30, _⟩ => ⟨S65536, .f32⟩
  | .hbm, ⟨31, _⟩ => ⟨S_, .f32⟩
  | .hbm, ⟨32, _⟩ => ⟨S65536, .f32⟩
  | .hbm, ⟨33, _⟩ => ⟨S65536, .f32⟩
  | .hbm, ⟨34, _⟩ => ⟨S65536, .f32⟩
  | .hbm, ⟨35, _⟩ => ⟨S_, .f32⟩
  | .hbm, ⟨36, _⟩ => ⟨S65536, .f32⟩
  | .hbm, ⟨37, _⟩ => ⟨S65536, .f32⟩
  | .hbm, ⟨38, _⟩ => ⟨S65536, .f32⟩
  | .hbm, ⟨39, _⟩ => ⟨S_, .f32⟩
  | .hbm, ⟨40, _⟩ => ⟨S65536, .f32⟩
  | .hbm, ⟨41, _⟩ => ⟨S65536, .f32⟩
  | .hbm, ⟨42, _⟩ => ⟨S_, .f32⟩
  | .hbm, ⟨43, _⟩ => ⟨S65536, .f32⟩
  | .hbm, ⟨44, _⟩ => ⟨S65536, .f32⟩
  | .hbm, ⟨45, _⟩ => ⟨S_, .f32⟩
  | .hbm, ⟨46, _⟩ => ⟨S65536, .f32⟩
  | .hbm, ⟨47, _⟩ => ⟨S65536, .f32⟩
  | .hbm, ⟨48, _⟩ => ⟨S65536, .f32⟩
  | .hbm, ⟨49, _⟩ => ⟨S65536, .f32⟩
  | .hbm, ⟨50, _⟩ => ⟨S_, .f32⟩
  | .hbm, ⟨51, _⟩ => ⟨S65536, .f32⟩
  | .hbm, ⟨52, _⟩ => ⟨S65536, .f32⟩
  | .hbm, ⟨53, _⟩ => ⟨S65536, .f32⟩
  | .hbm, ⟨54, _⟩ => ⟨S65536, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_11 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_12 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S_S65536 : S_.BroadcastsInDim S65536 (![] : Fin 0 → Fin S65536.rank)
  reducesTo_S65536_S_d0 : S65536.ReducesTo [0] S_

variable [Facts₀]

class Facts : Prop extends Facts₀ where

variable [Facts]
-- ==== Proof.RowLoss.lean ====
/-
  The adaptive triplet margin loss, as functions of extended reals.

  For an anchor row `a`, a positive row `p` and a negative row `n` (256 entries each) with Euclidean distances
  `d_ap`, `d_an`, `d_pn`, the row's loss is
      d_ap − (d_an + d_pn) / 2 + (1 + 2 / (exp (4·d_ap) + ε)) + (1 + 2 / (exp (−4·d_an + 4) + ε)),
  and the result is the mean of the 65536 row losses. The constants are kept as the binary values both programs
  spell (4, 2, 1, ε = the float nearest 1e-6, 65536); nothing below evaluates them.
-/
import Idealize.ShloMosaic.PureOps.Ideal
import Idealize.ShloMosaic.Lib.ValueIdx

noncomputable section

namespace Cert.Triplet

open Idealize.ShloMosaic Idealize.ShloMosaic.ValueIdx

/-- The Euclidean distance of two rows: the square root of the sum of the squared differences. -/
def dist (x y : Fin 256 → EReal) : EReal :=
  Ideal.sqrt (∑ k : Fin 256, (x k - y k) * (x k - y k))

/-- The loss of one row from its three distances. -/
def lossOf (dap dan dpn : EReal) : EReal :=
  (dap - Ideal.div (dan + dpn) (Ideal.ofBits .f32 0x40000000#32))
    + ((Ideal.ofBits .f32 0x3F800000#32
          + Ideal.div (Ideal.ofBits .f32 0x40000000#32)
              (Ideal.exp (Ideal.ofBits .f32 0x40800000#32 * dap) + Ideal.ofBits .f32 0x358637BD#32))
      + (Ideal.ofBits .f32 0x3F800000#32
          + Ideal.div (Ideal.ofBits .f32 0x40000000#32)
              (Ideal.exp (-(Ideal.ofBits .f32 0x40800000#32 * dan) + Ideal.ofBits .f32 0x40800000#32)
                + Ideal.ofBits .f32 0x358637BD#32)))

/-- The loss of one (anchor, positive, negative) triple of rows. -/
def rowLoss (a p n : Fin 256 → EReal) : EReal := lossOf (dist a p) (dist a n) (dist p n)

/-- A batch of 65536 rows of 256 entries. -/
abbrev Batch : Type := (⟨2, ![65536, 256]⟩ : Shape).Idx → EReal

/-- Row `r` of a batch. -/
def row (X : Batch) (r : Fin 65536) : Fin 256 → EReal := fun k => X (ix2 r k)

/-- The loss of row `r` of the three batches. -/
def lossAt (A P N : Batch) (r : Fin 65536) : EReal := rowLoss (row A r) (row P r) (row N r)

/-- The same indexed by a natural number, zero past the batch (so that sums over ranges of naturals can be
    regrouped freely). -/
def lossNat (A P N : Batch) (r : ℕ) : EReal := if h : r < 65536 then lossAt A P N ⟨r, h⟩ else 0

/-- The mean loss: the sum of the row losses divided by 65536. -/
def meanLoss (A P N : Batch) : EReal :=
  Ideal.div (∑ r : Fin 65536, lossAt A P N r) (Ideal.ofBits .f32 0x47800000#32)

theorem lossNat_of_lt (A P N : Batch) (r : ℕ) (h : r < 65536) : lossNat A P N r = lossAt A P N ⟨r, h⟩ := dif_pos h

/-- Summing the natural-number form over the batch is summing the row losses. -/
theorem sum_lossNat (A P N : Batch) : ∑ r : Fin 65536, lossNat A P N r.val = ∑ r : Fin 65536, lossAt A P N r :=
  Finset.sum_congr rfl fun r _ => lossNat_of_lt A P N r.val r.isLt

end Cert.Triplet

end
-- ==== Proof.RefIsSpec.lean ====
/-
  The reference computes the mean loss: read one operation at a time at an index, its per-row column is the row
  loss of the three batches' rows, and its result is the sum of that column divided by 65536.
-/
import proofs.«125136_j57380763074766_2_alg».proof.Proof.Gen.ReferenceIdeal.Read
import proofs.«125136_j57380763074766_2_alg».proof.Proof.RowLoss
import Idealize.ShloMosaic.PureOps.Ideal.Laws
import Idealize.ShloMosaic.Lib.ValueIdx

noncomputable section

open Idealize.ShloMosaic Idealize.ShloMosaic.ValueIdx

namespace Cert.ReferenceIdeal.RefValue

open Cert.ReferenceIdeal Cert.ReferenceIdeal.Read Cert.Triplet

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-- The anchor–positive distance column at row `r`. -/
theorem v3_at (A P : Batch) (r : Fin 65536) :
    val_main_v3 (F := Ideal) A P (ix1 r) = dist (row A r) (row P r) := by
  have e : ∀ k, idx_main_v2 (ix1 r) k = ix2 r k := fun k =>
    funext fun a => Fin.ext (by match a with | ⟨0, _⟩ => rfl | ⟨1, _⟩ => rfl)
  rw [val_main_v3_apply, val_main_v2_apply]
  simp only [val_main_cst_apply, val_main_v1_apply, val_main_v0_apply, e, Ideal.hostUnary_sqrt_def, Ideal.subf_def,
    Ideal.mulf_def, Ideal.ofBits_def, Ideal.ofBits_zero_f32, zero_add]
  rfl

/-- The anchor–negative distance column at row `r`. -/
theorem v7_at (A N : Batch) (r : Fin 65536) :
    val_main_v7 (F := Ideal) A N (ix1 r) = dist (row A r) (row N r) := by
  have e : ∀ k, idx_main_v6 (ix1 r) k = ix2 r k := fun k =>
    funext fun a => Fin.ext (by match a with | ⟨0, _⟩ => rfl | ⟨1, _⟩ => rfl)
  rw [val_main_v7_apply, val_main_v6_apply]
  simp only [val_main_cst_0_apply, val_main_v5_apply, val_main_v4_apply, e, Ideal.hostUnary_sqrt_def, Ideal.subf_def,
    Ideal.mulf_def, Ideal.ofBits_def, Ideal.ofBits_zero_f32, zero_add]
  rfl

/-- The positive–negative distance column at row `r`. -/
theorem v11_at (P N : Batch) (r : Fin 65536) :
    val_main_v11 (F := Ideal) P N (ix1 r) = dist (row P r) (row N r) := by
  have e : ∀ k, idx_main_v10 (ix1 r) k = ix2 r k := fun k =>
    funext fun a => Fin.ext (by match a with | ⟨0, _⟩ => rfl | ⟨1, _⟩ => rfl)
  rw [val_main_v11_apply, val_main_v10_apply]
  simp only [val_main_cst_1_apply, val_main_v9_apply, val_main_v8_apply, e, Ideal.hostUnary_sqrt_def, Ideal.subf_def,
    Ideal.mulf_def, Ideal.ofBits_def, Ideal.ofBits_zero_f32, zero_add]
  rfl

/-- The loss column at row `r` is the row's loss. -/
theorem v38_at (A P N : Batch) (r : Fin 65536) :
    val_main_v38 (F := Ideal) A P N (ix1 r) = lossAt A P N r := by
  simp only [val_main_v38_apply, val_main_v37_apply, val_main_v36_apply, val_main_v35_apply, val_main_v34_apply,
    val_main_v33_apply, val_main_v32_apply, val_main_v31_apply, val_main_v30_apply, val_main_v29_apply,
    val_main_v28_apply, val_main_v27_apply, val_main_v26_apply, val_main_v25_apply, val_main_v24_apply,
    val_main_v23_apply, val_main_v22_apply, val_main_v21_apply, val_main_v20_apply, val_main_v19_apply,
    val_main_v18_apply, val_main_v17_apply, val_main_v16_apply, val_main_v15_apply, val_main_v14_apply,
    val_main_v13_apply, val_main_v12_apply,
    val_main_cst_2_apply, val_main_cst_3_apply, val_main_cst_4_apply, val_main_cst_5_apply, val_main_cst_6_apply,
    val_main_cst_7_apply, val_main_cst_8_apply, val_main_cst_9_apply, val_main_cst_10_apply, val_main_cst_11_apply,
    v3_at, v7_at, v11_at,
    Ideal.addf_def, Ideal.subf_def, Ideal.mulf_def, Ideal.hostDivf_def, Ideal.hostNegf_def, Ideal.negf_def,
    Ideal.hostUnary_exp_def, Ideal.ofBits_def]
  rfl

/-- The reference's result is the mean loss. -/
theorem result_eq (A P N : Batch) : val_main_v40 (F := Ideal) A P N = fun _ => meanLoss A P N := by
  funext i
  rw [val_main_v40_apply, val_main_v39_apply]
  simp only [val_main_cst_12_apply, val_main_cst_13_apply, Ideal.hostDivf_def, Ideal.ofBits_def, Ideal.ofBits_zero_f32,
    zero_add]
  unfold meanLoss
  refine congrArg (fun s => Ideal.div s (Ideal.ofBits .f32 0x47800000#32)) ?_
  rw [sum_idx1]
  exact Finset.sum_congr rfl fun r _ => v38_at A P N r

end Cert.ReferenceIdeal.RefValue

end
-- ==== Proof.BodyValue.lean ====
/-
  What one grid point leaves in the accumulator block, as a value (at any float instance).

  The kernel's output block is a single cell per core. At the first tile of a core's half of the batch the body
  stores zero into the cell, reads it back and adds the tile's sum of losses; at every later tile it adds the
  tile's sum to what the tile before left. Both cases are one covering store of the same arithmetic term, applied
  to the zero cell in the first case and to the previous contents in the second.
-/
import proofs.«125136_j57380763074766_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.PointValue

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- One tile's update of the accumulator cell: from the tile's three blocks (anchor, positive, negative rows) and
    the cell's contents `acc`, the contents plus the sum over the tile's rows of the per-row loss. -/
abbrev step (x0 x1 x2 : Vec F S4096x256 .f32) (acc : Vec F S1x1x1 .f32) : Vec F S1x1x1 .f32 :=
  k0_pay1 (k0_pay3 x0 x1) (k0_pay4 x0 x2) (k0_pay5 x1 x2) (k0_pay6 x0 x1) (k0_pay7 x0 x2) (k0_pay8 (F := F)) acc

/-- The zero cell the first tile of a core's half stores before accumulating. -/
abbrev zeroCell : Vec F S1x1x1 .f32 := k0_pay2 (F := F)

/-- A later tile: the cell holding `xo` ends at `step` of the tile's blocks and `xo`. -/
theorem out_B (c : Dev nD) (i : grid0.Coords) (a2 : Memref sig .tc .vmem S4096x256 .f32) (h2 : a2.IsWhole)
    (a3 : Memref sig .tc .vmem S4096x256 .f32) (h3 : a3.IsWhole) (a4 : Memref sig .tc .vmem S4096x256 .f32) (h4 : a4.IsWhole)
    (a5 : Memref sig .tc .vmem S1x1x1 .f32) (h5 : a5.IsWhole) (hc : ¬cond0_0 i)
    (x0 x1 x2 : Vec F S4096x256 .f32) (xo : Vec F S1x1x1 .f32) :
    out0_B_3 c i a2 h2 a3 h3 a4 h4 a5 h5 hc x0 x1 x2 xo = step x0 x1 x2 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero zeros3]
  simp only [View.readAt_eq_ld, h2.read_unread, h3.read_unread, h4.read_unread, h5.read_unread,
    View.ld_unit_zero (S := S4096x256) zeros2, View.ld_unit_zero (S := S1x1x1) zeros3]

/-- The first tile of a core's half: the cell is zeroed, read back, and ends at `step` of the tile's blocks and
    the zero cell. -/
theorem out_A (c : Dev nD) (i : grid0.Coords) (a2 : Memref sig .tc .vmem S4096x256 .f32) (h2 : a2.IsWhole)
    (a3 : Memref sig .tc .vmem S4096x256 .f32) (h3 : a3.IsWhole) (a4 : Memref sig .tc .vmem S4096x256 .f32) (h4 : a4.IsWhole)
    (a5 : Memref sig .tc .vmem S1x1x1 .f32) (h5 : a5.IsWhole) (hc : cond0_0 i)
    (x0 x1 x2 : Vec F S4096x256 .f32) :
    out0_A_3 c i a2 h2 a3 h3 a4 h4 a5 h5 hc x0 x1 x2 = step x0 x1 x2 zeroCell := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x1x1) zeros3, View.readCov_unit_zero (S := S1x1x1) _ zeros3]
  simp only [View.readAt_eq_ld, h2.read_unread, h3.read_unread, h4.read_unread,
    View.ld_unit_zero (S := S4096x256) zeros2]

end Cert.KernelIdeal.PointValue

end
-- ==== Proof.PayloadAt.lean ====
/-
  The body's arithmetic at an index, over the extended reals.

  Each of the three distance columns of a tile reads, at row `q`, the Euclidean distance of row `q` of its two
  blocks (a lane sum of squared differences, kept as a column, then a square root); the per-row loss column is the
  loss of those three distances; and the tile's update adds the sum of that column over the tile's 4096 rows to the
  accumulator cell.
-/
import proofs.«125136_j57380763074766_2_alg».proof.Proof.BodyValue
import proofs.«125136_j57380763074766_2_alg».proof.Proof.RowLoss
import Idealize.ShloMosaic.PureOps.Ideal.Laws
import Idealize.ShloMosaic.Lib.ValueIdx
import Idealize.ShloMosaic.Lib.Pipeline.Value

noncomputable section

open Idealize.ShloMosaic Idealize.ShloMosaic.TcCoe Idealize.ShloMosaic.ValueIdx

namespace Cert.KernelIdeal.PointValue

open Cert.KernelIdeal Cert.KernelIdeal.Gen

/-- Row `q` of a tile block. -/
def tileRow (x : FVec Ideal S4096x256 .f32) (q : Fin 4096) : Fin 256 → EReal := fun k => x (ix2 q k)

/-- The sum over a tile's rows of the per-row loss. -/
def tileSum (x0 x1 x2 : FVec Ideal S4096x256 .f32) : EReal :=
  ∑ q : Fin 4096, Cert.Triplet.rowLoss (tileRow x0 q) (tileRow x1 q) (tileRow x2 q)

/-- The accumulator block has one cell. -/
theorem cell_eq (i : S1x1x1.Idx) : i = ix3 (0 : Fin 1) (0 : Fin 1) (0 : Fin 1) := by
  funext a
  apply Fin.ext
  match a with
  | ⟨0, _⟩ => have h : (i 0).val < 1 := (i 0).isLt; show (i 0).val = 0; omega
  | ⟨1, _⟩ => have h : (i 1).val < 1 := (i 1).isLt; show (i 1).val = 0; omega
  | ⟨2, _⟩ => have h : (i 2).val < 1 := (i 2).isLt; show (i 2).val = 0; omega

/-- A lane sum kept as a column: at row `q` it is the sum of row `q`'s 256 entries. -/
theorem laneSum_at (v : FVec Ideal S4096x256 .f32) (h : S4096x256.Reduces [1] S4096) (hφ : FKind.Formats .f32)
    (hacc : (0x00000000#32 : BitVec (FTy.f32).bits) = FKind.add.neutral .f32 hφ) (hc : S4096.ShapeCasts S4096x1)
    (q : Fin 4096) :
    shapeCast S4096x1 (multiReduction .add [1] S4096 v 0x00000000#32 h hφ hacc) hc (ix2 q (0 : Fin 1))
      = ∑ k : Fin 256, v (ix2 q k) := by
  refine (shapeCast_apply _ hc (ix2 q (0 : Fin 1)) (ix1 q) ?_).trans ?_
  · rw [Shape.rowMajor_val_one, Shape.rowMajor_val_two]
    show q.val = q.val * 1 + 0
    omega
  · refine (Ideal.multiReduction_add_single v _ h hφ hacc (ix1 q)).trans ?_
    refine Finset.sum_congr rfl fun k _ => congrArg v ?_
    exact funext fun a => Fin.ext (by match a with | ⟨0, _⟩ => rfl | ⟨1, _⟩ => rfl)

/-- A sum down a one-column vector, kept as the one cell: the sum of the column's 4096 entries. -/
theorem columnSum_at (v : FVec Ideal S4096x1 .f32) (h : S4096x1.Reduces [0] S1) (hφ : FKind.Formats .f32)
    (hacc : (0x00000000#32 : BitVec (FTy.f32).bits) = FKind.add.neutral .f32 hφ) (hc1 : S1.ShapeCasts S1x1)
    (hc2 : S1x1.ShapeCasts S1x1x1) :
    shapeCast S1x1x1 (shapeCast S1x1 (multiReduction .add [0] S1 v 0x00000000#32 h hφ hacc) hc1) hc2
        (ix3 (0 : Fin 1) (0 : Fin 1) (0 : Fin 1))
      = ∑ q : Fin 4096, v (ix2 q (0 : Fin 1)) := by
  refine (shapeCast_apply _ hc2 (ix3 (0 : Fin 1) (0 : Fin 1) (0 : Fin 1)) (ix2 (0 : Fin 1) (0 : Fin 1)) ?_).trans ?_
  · rw [Shape.rowMajor_val_two, Shape.rowMajor_val_three]
    rfl
  refine (shapeCast_apply _ hc1 (ix2 (0 : Fin 1) (0 : Fin 1)) (ix1 (0 : Fin 1)) ?_).trans ?_
  · rw [Shape.rowMajor_val_one, Shape.rowMajor_val_two]
    rfl
  refine (Ideal.multiReduction_add_single v _ h hφ hacc (ix1 (0 : Fin 1))).trans ?_
  refine Finset.sum_congr rfl fun q _ => congrArg v ?_
  exact funext fun a => Fin.ext (by match a with | ⟨0, _⟩ => rfl | ⟨1, _⟩ => rfl)

/-- The anchor–positive distance column at row `q`. -/
theorem pay3_at (x y : FVec Ideal S4096x256 .f32) (q : Fin 4096) :
    k0_pay3 (F := Ideal) x y (ix2 q (0 : Fin 1)) = Cert.Triplet.dist (tileRow x q) (tileRow y q) := by
  show Ideal.sqrt (shapeCast S4096x1 (multiReduction .add [1] S4096 (mulf (subf x y) (subf x y)) 0x00000000#32
    reduces_S4096x256_S4096 (.inl rfl) rfl) shapeCasts_S4096_S4096x1 (ix2 q (0 : Fin 1))) = _
  exact congrArg Ideal.sqrt (laneSum_at (mulf (subf x y) (subf x y)) _ _ _ _ q)

/-- The anchor–negative distance column at row `q`. -/
theorem pay4_at (x y : FVec Ideal S4096x256 .f32) (q : Fin 4096) :
    k0_pay4 (F := Ideal) x y (ix2 q (0 : Fin 1)) = Cert.Triplet.dist (tileRow x q) (tileRow y q) := by
  show Ideal.sqrt (shapeCast S4096x1 (multiReduction .add [1] S4096 (mulf (subf x y) (subf x y)) 0x00000000#32
    reduces_S4096x256_S4096 (.inl rfl) rfl) shapeCasts_S4096_S4096x1 (ix2 q (0 : Fin 1))) = _
  exact congrArg Ideal.sqrt (laneSum_at (mulf (subf x y) (subf x y)) _ _ _ _ q)

/-- The positive–negative distance column at row `q`. -/
theorem pay5_at (x y : FVec Ideal S4096x256 .f32) (q : Fin 4096) :
    k0_pay5 (F := Ideal) x y (ix2 q (0 : Fin 1)) = Cert.Triplet.dist (tileRow x q) (tileRow y q) := by
  show Ideal.sqrt (shapeCast S4096x1 (multiReduction .add [1] S4096 (mulf (subf x y) (subf x y)) 0x00000000#32
    reduces_S4096x256_S4096 (.inl rfl) rfl) shapeCasts_S4096_S4096x1 (ix2 q (0 : Fin 1))) = _
  exact congrArg Ideal.sqrt (laneSum_at (mulf (subf x y) (subf x y)) _ _ _ _ q)

/-- The similarity margin column `1 + 2 / (exp (4·d_ap) + ε)` at row `q`. -/
theorem pay6_at (x y : FVec Ideal S4096x256 .f32) (q : Fin 4096) :
    k0_pay6 (F := Ideal) x y (ix2 q (0 : Fin 1))
      = Ideal.ofBits .f32 0x3F800000#32
          + Ideal.div (Ideal.ofBits .f32 0x40000000#32)
              (Ideal.exp (Ideal.ofBits .f32 0x40800000#32 * Cert.Triplet.dist (tileRow x q) (tileRow y q))
                + Ideal.ofBits .f32 0x358637BD#32) := by
  show Ideal.ofBits .f32 0x3F800000#32
      + Ideal.div (Ideal.ofBits .f32 0x40000000#32)
          (Ideal.exp (Ideal.ofBits .f32 0x40800000#32 * k0_pay3 (F := Ideal) x y (ix2 q (0 : Fin 1)))
            + Ideal.ofBits .f32 0x358637BD#32) = _
  rw [pay3_at]

/-- The exponential `exp (−4·d_an + 4)` of the dissimilarity margin at row `q` (the body writes the negation as
    `0 − ·`, which on the extended reals is the negation). -/
theorem pay7_at (x y : FVec Ideal S4096x256 .f32) (q : Fin 4096) :
    k0_pay7 (F := Ideal) x y (ix2 q (0 : Fin 1))
      = Ideal.exp (-(Ideal.ofBits .f32 0x40800000#32 * Cert.Triplet.dist (tileRow x q) (tileRow y q))
          + Ideal.ofBits .f32 0x40800000#32) := by
  show Ideal.exp ((Ideal.ofBits .f32 0x00000000#32 - Ideal.ofBits .f32 0x40800000#32 * k0_pay4 (F := Ideal) x y (ix2 q (0 : Fin 1)))
      + Ideal.ofBits .f32 0x40800000#32) = _
  rw [pay4_at, Ideal.ofBits_zero_f32, zero_sub]

/-- One tile's update at the cell: the cell's contents plus the tile's sum of row losses. -/
theorem step_apply (x0 x1 x2 : FVec Ideal S4096x256 .f32) (acc : FVec Ideal S1x1x1 .f32) (i : S1x1x1.Idx) :
    step (F := Ideal) x0 x1 x2 acc i = acc i + tileSum x0 x1 x2 := by
  obtain rfl := cell_eq i
  show shapeCast S1x1x1 acc shapeCasts_S1x1x1_S1x1x1 (ix3 (0 : Fin 1) (0 : Fin 1) (0 : Fin 1))
      + shapeCast S1x1x1 (shapeCast S1x1 (multiReduction .add [0] S1 _ 0x00000000#32 reduces_S4096x1_S1 (.inl rfl) rfl)
          shapeCasts_S1_S1x1) shapeCasts_S1x1_S1x1x1 (ix3 (0 : Fin 1) (0 : Fin 1) (0 : Fin 1)) = _
  refine congrArg₂ (· + ·) (congrFun (shapeCast_self acc _) _) ((columnSum_at _ _ _ _ _ _).trans ?_)
  refine Finset.sum_congr rfl fun q _ => ?_
  show (k0_pay3 (F := Ideal) x0 x1 (ix2 q (0 : Fin 1))
        - Ideal.div (k0_pay4 (F := Ideal) x0 x2 (ix2 q (0 : Fin 1)) + k0_pay5 (F := Ideal) x1 x2 (ix2 q (0 : Fin 1))) (Ideal.ofBits .f32 0x40000000#32))
      + (k0_pay6 (F := Ideal) x0 x1 (ix2 q (0 : Fin 1))
        + (Ideal.ofBits .f32 0x3F800000#32
          + Ideal.div (Ideal.ofBits .f32 0x40000000#32)
              (k0_pay7 (F := Ideal) x0 x2 (ix2 q (0 : Fin 1)) + Ideal.ofBits .f32 0x358637BD#32))) = _
  rw [pay3_at, pay4_at, pay5_at, pay6_at, pay7_at]
  rfl

/-- The zero cell holds the extended real zero. -/
theorem zeroCell_apply (i : S1x1x1.Idx) : (zeroCell (F := Ideal)) i = 0 := by
  show Ideal.ofBits .f32 0x00000000#32 = 0
  exact Ideal.ofBits_zero_f32

end Cert.KernelIdeal.PointValue

end
-- ==== Proof.LibRangeBlocks.lean ====
/-
  A sum over the first `a * b` naturals, taken as `a` consecutive blocks of `b` terms.
-/
import Mathlib.Algebra.BigOperators.Group.Finset.Basic
import Mathlib.Algebra.BigOperators.Fin

namespace Cert.LibRangeBlocks

open Finset

/-- In a commutative additive monoid, the sum of `f` over `0, …, a·b − 1` is the sum over the `a` blocks of the sum of
    each block's `b` consecutive terms: `∑_{r < a·b} f r = ∑_{i < a} ∑_{j < b} f (b·i + j)`. Only commutativity and
    associativity of `+` are used, so it holds of the extended reals with their infinities. -/
theorem sum_range_mul {M : Type*} [AddCommMonoid M] (f : ℕ → M) (a b : ℕ) :
    ∑ r ∈ range (a * b), f r = ∑ i ∈ range a, ∑ j ∈ range b, f (b * i + j) := by
  induction a with
  | zero => simp
  | succ a ih =>
    rw [add_mul, one_mul, sum_range_add, ih, sum_range_succ, Nat.mul_comm a b]

/-- The same with the outer index and the whole range read over `Fin`. -/
theorem sum_fin_mul {M : Type*} [AddCommMonoid M] (f : ℕ → M) (a b : ℕ) :
    ∑ r : Fin (a * b), f r.val = ∑ i : Fin a, ∑ j ∈ range b, f (b * i.val + j) := by
  rw [Fin.sum_univ_eq_sum_range (fun r => f r) (a * b), sum_range_mul,
    ← Fin.sum_univ_eq_sum_range (fun i => ∑ j ∈ range b, f (b * i + j)) a]

end Cert.LibRangeBlocks
-- ==== Proof.Regroup.lean ====
/-
  The batch's sum of row losses, regrouped the way the kernel accumulates it: two halves of the batch, eight tiles
  per half, 4096 rows per tile. Only commutativity and associativity of addition on the extended reals are used, so
  no finiteness of the losses is needed.
-/
import proofs.«125136_j57380763074766_2_alg».proof.Proof.RowLoss
import proofs.«125136_j57380763074766_2_alg».proof.Proof.LibRangeBlocks

noncomputable section

namespace Cert.Triplet

open Finset

/-- The sum of one tile's row losses: tile `n` holds rows `4096·n, …, 4096·n + 4095`. -/
def tileTotal (A P N : Batch) (n : ℕ) : EReal := ∑ q ∈ range 4096, lossNat A P N (4096 * n + q)

/-- Half by half and tile by tile, the tiles' sums add up to the sum of all 65536 row losses. -/
theorem sum_halves_tiles (A P N : Batch) :
    ∑ c : Fin 2, ∑ s ∈ range 8, tileTotal A P N (8 * c.val + s) = ∑ r : Fin 65536, lossAt A P N r := by
  rw [← sum_lossNat]
  show _ = ∑ r : Fin (2 * 32768), lossNat A P N r.val
  rw [Cert.LibRangeBlocks.sum_fin_mul (lossNat A P N) 2 32768]
  refine Finset.sum_congr rfl fun c _ => ?_
  show _ = ∑ j ∈ range (8 * 4096), lossNat A P N (32768 * c.val + j)
  rw [Cert.LibRangeBlocks.sum_range_mul (fun j => lossNat A P N (32768 * c.val + j)) 8 4096]
  refine Finset.sum_congr rfl fun s _ => ?_
  unfold tileTotal
  refine Finset.sum_congr rfl fun q _ => ?_
  exact congrArg (lossNat A P N) (by ring)

end Cert.Triplet

end
-- ==== Proof.Accumulate.lean ====
/-
  The per-core partial sums, as contents of the kernel's result array.

  Grid point `t` (0 ≤ t < 16) handles tile `t`: rows `4096·t … 4096·t + 4095` of the three batches. Points 0–7 belong
  to the first core's cell, points 8–15 to the second's. A cell is zeroed at the first point of its half and each
  point adds its tile's sum of row losses to it, so after point `t` the cell holds zero plus the tile sums of points
  `8·(t / 8) … t`; it is written back after the half's last point. Hence cell `h` of the result array ends at the
  sum of the tile sums of tiles `8·h … 8·h + 7`.
-/
import proofs.«125136_j57380763074766_2_alg».proof.Proof.PayloadAt
import proofs.«125136_j57380763074766_2_alg».proof.Proof.Regroup
import proofs.«125136_j57380763074766_2_alg».proof.Proof.Gen.KernelIdeal.Frame
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.ArrayValue

open Cert.KernelIdeal Cert.KernelIdeal.Gen Cert.KernelIdeal.PointValue Cert.Triplet

variable (m : (ℓ : Loc nD τ sig) → Buf (Elt Ideal) ℓ)

/-- The three argument arrays as batches of rows. -/
abbrev argA (c : Dev nD) : Batch := m ((c : Thread nD τ).loc main_arg0)
abbrev argP (c : Dev nD) : Batch := m ((c : Thread nD τ).loc main_arg1)
abbrev argN (c : Dev nD) : Batch := m ((c : Thread nD τ).loc main_arg2)

/-- The three blocks grid point `t` reads. -/
abbrev blkA (c : Dev nD) (t : Fin cfg0.N) : FVec Ideal S4096x256 .f32 := iblk m c 0 t
abbrev blkP (c : Dev nD) (t : Fin cfg0.N) : FVec Ideal S4096x256 .f32 := iblk m c 1 t
abbrev blkN (c : Dev nD) (t : Fin cfg0.N) : FVec Ideal S4096x256 .f32 := iblk m c 2 t

/-- The index maps over the grid: point `t` reads row tile `t` of each batch and owns cell `t / 8`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val / 8 ∧ win0_3.index t (1 : Fin 3) = 0 ∧ win0_3.index t (2 : Fin 3) = 0 :=
  (by decide +kernel : ∀ t : Fin grid0.N, _)

/-- Row `q` of the anchor block at point `t` is row `4096·t + q` of the anchor batch. -/
theorem blkA_row (c : Dev nD) (t : Fin cfg0.N) (q : Fin 4096) (hr : 4096 * t.val + q.val < 65536) :
    tileRow (blkA m c t) q = row (argA m c) ⟨4096 * t.val + q.val, hr⟩ := by
  obtain ⟨e0, e1, -⟩ := idx_facts t
  funext k
  show (iblk m c 0 t : FVec Ideal S4096x256 .f32) (ix2 q k) = m ((c : Thread nD τ).loc main_arg0) (ix2 ⟨4096 * t.val + q.val, hr⟩ k)
  unfold iblk
  rw [View.read_apply]
  show V m c main_arg0 _ = m ((c : Thread nD τ).loc main_arg0) _
  rw [V_main_arg0]
  refine congrArg _ (funext fun a => Fin.ext ?_)
  match a with
  | ⟨0, _⟩ => show win0_0.index t (0 : Fin 2) * 4096 + 1 * q.val = 4096 * t.val + q.val; rw [e0]; omega
  | ⟨1, _⟩ => show win0_0.index t (1 : Fin 2) * 256 + 1 * k.val = k.val; rw [e1]; omega

/-- Row `q` of the positive block at point `t` is row `4096·t + q` of the positive batch. -/
theorem blkP_row (c : Dev nD) (t : Fin cfg0.N) (q : Fin 4096) (hr : 4096 * t.val + q.val < 65536) :
    tileRow (blkP m c t) q = row (argP m c) ⟨4096 * t.val + q.val, hr⟩ := by
  obtain ⟨-, -, e0, e1, -⟩ := idx_facts t
  funext k
  show (iblk m c 1 t : FVec Ideal S4096x256 .f32) (ix2 q k) = m ((c : Thread nD τ).loc main_arg1) (ix2 ⟨4096 * t.val + q.val, hr⟩ k)
  unfold iblk
  rw [View.read_apply]
  show V m c main_arg1 _ = m ((c : Thread nD τ).loc main_arg1) _
  rw [V_main_arg1]
  refine congrArg _ (funext fun a => Fin.ext ?_)
  match a with
  | ⟨0, _⟩ => show win0_1.index t (0 : Fin 2) * 4096 + 1 * q.val = 4096 * t.val + q.val; rw [e0]; omega
  | ⟨1, _⟩ => show win0_1.index t (1 : Fin 2) * 256 + 1 * k.val = k.val; rw [e1]; omega

/-- Row `q` of the negative block at point `t` is row `4096·t + q` of the negative batch. -/
theorem blkN_row (c : Dev nD) (t : Fin cfg0.N) (q : Fin 4096) (hr : 4096 * t.val + q.val < 65536) :
    tileRow (blkN m c t) q = row (argN m c) ⟨4096 * t.val + q.val, hr⟩ := by
  obtain ⟨-, -, -, -, e0, e1, -⟩ := idx_facts t
  funext k
  show (iblk m c 2 t : FVec Ideal S4096x256 .f32) (ix2 q k) = m ((c : Thread nD τ).loc main_arg2) (ix2 ⟨4096 * t.val + q.val, hr⟩ k)
  unfold iblk
  rw [View.read_apply]
  show V m c main_arg2 _ = m ((c : Thread nD τ).loc main_arg2) _
  rw [V_main_arg2]
  refine congrArg _ (funext fun a => Fin.ext ?_)
  match a with
  | ⟨0, _⟩ => show win0_2.index t (0 : Fin 2) * 4096 + 1 * q.val = 4096 * t.val + q.val; rw [e0]; omega
  | ⟨1, _⟩ => show win0_2.index t (1 : Fin 2) * 256 + 1 * k.val = k.val; rw [e1]; omega

/-- The sum of row losses over the blocks of point `t` is tile `t`'s sum over the batches. -/
theorem tileSum_eq (c : Dev nD) (t : Fin cfg0.N) :
    tileSum (blkA m c t) (blkP m c t) (blkN m c t) = tileTotal (argA m c) (argP m c) (argN m c) t.val := by
  have hN : t.val < 16 := lt_of_lt_of_eq t.isLt (show cfg0.N = 16 from N_0)
  unfold tileSum tileTotal
  rw [Finset.sum_range]
  refine Finset.sum_congr rfl fun q _ => ?_
  have hq : q.val < 4096 := q.isLt
  have hr : 4096 * t.val + q.val < 65536 := by omega
  rw [lossNat_of_lt _ _ _ _ hr]
  unfold lossAt
  rw [blkA_row m c t q hr, blkP_row m c t q hr, blkN_row m c t q hr]

/-- The cell after a half's first point: the zero cell updated by that point's tile. -/
def resetAt (c : Dev nD) (n : ℕ) (h : n < cfg0.N) : S1x1x1.Idx → EReal :=
  step (F := Ideal) (blkA m c ⟨n, h⟩) (blkP m c ⟨n, h⟩) (blkN m c ⟨n, h⟩) zeroCell

/-- The cell after a later point, from what the point before left. -/
def stepAt (c : Dev nD) (n : ℕ) (h : n < cfg0.N) (acc : S1x1x1.Idx → EReal) : S1x1x1.Idx → EReal :=
  step (F := Ideal) (blkA m c ⟨n, h⟩) (blkP m c ⟨n, h⟩) (blkN m c ⟨n, h⟩) acc

theorem reset_eq (c : Dev nD) (n : ℕ) (h : n < cfg0.N) (h0 : n % 8 = 0) : outsAt0 m c n h = resetAt m c n h := by
  rw [outsAt0_A m c ⟨n, h⟩ h0, out_A]
  rfl

theorem step_eq (c : Dev nD) (n : ℕ) (h : n + 1 < cfg0.N) (hB : ¬(n + 1) % 8 = 0) :
    outsAt0 m c (n + 1) h = stepAt m c (n + 1) h (outsAt0 m c n (Nat.lt_of_succ_lt h)) := by
  rw [outsAt0_B m c ⟨n + 1, h⟩ hB, out_B]
  rfl

/-- The cell after a half's first point, read: zero plus that point's tile sum. -/
theorem resetAt_apply (c : Dev nD) (n : ℕ) (h : n < cfg0.N) (i : S1x1x1.Idx) :
    resetAt m c n h i = 0 + tileTotal (argA m c) (argP m c) (argN m c) n := by
  show step (F := Ideal) (blkA m c ⟨n, h⟩) (blkP m c ⟨n, h⟩) (blkN m c ⟨n, h⟩) (zeroCell (F := Ideal)) i = _
  refine (step_apply (blkA m c ⟨n, h⟩) (blkP m c ⟨n, h⟩) (blkN m c ⟨n, h⟩) (zeroCell (F := Ideal)) i).trans ?_
  rw [zeroCell_apply, tileSum_eq m c ⟨n, h⟩]

/-- The cell after a later point, read: what it held plus that point's tile sum. -/
theorem stepAt_apply (c : Dev nD) (n : ℕ) (h : n < cfg0.N) (acc : S1x1x1.Idx → EReal) (i : S1x1x1.Idx) :
    stepAt m c n h acc i = acc i + tileTotal (argA m c) (argP m c) (argN m c) n := by
  show step (F := Ideal) (blkA m c ⟨n, h⟩) (blkP m c ⟨n, h⟩) (blkN m c ⟨n, h⟩) acc i = _
  refine (step_apply (blkA m c ⟨n, h⟩) (blkP m c ⟨n, h⟩) (blkN m c ⟨n, h⟩) acc i).trans ?_
  rw [tileSum_eq m c ⟨n, h⟩]

/-- After point `t` the cell holds zero plus the tile sums of the points of its half up to `t`. -/
theorem cell_after (c : Dev nD) (t : ℕ) (ht : t < cfg0.N) (i : S1x1x1.Idx) :
    outsAt0 m c t ht i
      = 0 + ∑ s ∈ Finset.range (t % 8 + 1), tileTotal (argA m c) (argP m c) (argN m c) (8 * (t / 8) + s) := by
  have h' : 8 * (t / 8) + t % 8 < cfg0.N := by rw [Nat.div_add_mod]; exact ht
  have e := Pipeline.eq_accAt_of_mod (outsAt0 m c) 8 (resetAt m c) (stepAt m c) (reset_eq m c) (step_eq m c)
    (by decide) t ht h'
  rw [e]
  exact Pipeline.accAt_add_apply (ι := S1x1x1.Idx) (β := EReal) (resetAt m c) (stepAt m c) (fun _ => 0)
    (fun n _ => tileTotal (argA m c) (argP m c) (argN m c) n) (8 * (t / 8)) (t % 8)
    (fun h i => resetAt_apply m c (8 * (t / 8)) h i)
    (fun n h acc i _ _ => stepAt_apply m c n h acc i)
    (t % 8) le_rfl h' i

/-- What the result array ends holding: cell `h` is zero plus the tile sums of the eight tiles of half `h`. -/
def cellsOut (c : Dev nD) : S2x1x1.Idx → EReal := fun i =>
  0 + ∑ s ∈ Finset.range 8, tileTotal (argA m c) (argP m c) (argN m c) (8 * (i 0).val + s)

/-- A half's last point writes back its cell of `cellsOut`. -/
theorem flushed_eq (c : Dev nD) (t : Fin cfg0.N) (hf : (cfg0.win 3).flush t = true) :
    (dats m 0 c).flushed 3 t = ((cfg0.win 3).blk t).view.read (Elt Ideal) (cellsOut m c) := by
  have h7 : t.val % 8 = 7 := (flush0_3 t).mp hf
  obtain ⟨-, -, -, -, -, -, e0, -, -⟩ := idx_facts t
  show (cfg0.win 3).cut (grid0.coords t) ((dats m 0 c).after 3 t) = _
  rw [after0_3]
  funext y
  rw [View.read_apply]
  show outsAt0 m c t.val t.isLt y = cellsOut m c (((cfg0.win 3).blk t).view.emb y)
  have hrow : ((((cfg0.win 3).blk t).view.emb y) 0).val = t.val / 8 := by
    show win0_3.index t (0 : Fin 3) * 1 + 1 * (y 0).val = t.val / 8
    have hy : (y 0).val < 1 := (y 0).isLt
    rw [e0]; omega
  rw [cell_after m c t.val t.isLt y, h7]
  unfold cellsOut
  rw [hrow]

/-- Every cell of the result array is some half's last point's block. -/
theorem cover (c : Dev nD) (i : S2x1x1.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 1 := (i 2).isLt
  have hlt : 8 * (i 0).val + 7 < cfg0.N := by rw [show cfg0.N = 16 from N_0]; omega
  obtain ⟨-, -, -, -, -, -, e0, e1, e2⟩ := idx_facts ⟨8 * (i 0).val + 7, hlt⟩
  have e0' : win0_3.index ⟨8 * (i 0).val + 7, hlt⟩ (0 : Fin 3) = (8 * (i 0).val + 7) / 8 := e0
  refine ⟨⟨8 * (i 0).val + 7, hlt⟩, (flush0_3 _).mpr (by show (8 * (i 0).val + 7) % 8 = 7; omega), ?_⟩
  show i ∈ ((View.whole main_v0).slice (win0_3.rect ⟨8 * (i 0).val + 7, hlt⟩)).set
  rw [View.set_slice_whole, Rect.mem_set_unit]
  intro a
  match a with
  | ⟨0, _⟩ =>
    show win0_3.index ⟨8 * (i 0).val + 7, hlt⟩ (0 : Fin 3) * 1 ≤ (i 0).val
      ∧ (i 0).val < win0_3.index ⟨8 * (i 0).val + 7, hlt⟩ (0 : Fin 3) * 1 + 1
    rw [e0']; omega
  | ⟨1, _⟩ =>
    show win0_3.index ⟨8 * (i 0).val + 7, hlt⟩ (1 : Fin 3) * 1 ≤ (i 1).val
      ∧ (i 1).val < win0_3.index ⟨8 * (i 0).val + 7, hlt⟩ (1 : Fin 3) * 1 + 1
    rw [e1]; omega
  | ⟨2, _⟩ =>
    show win0_3.index ⟨8 * (i 0).val + 7, hlt⟩ (2 : Fin 3) * 1 ≤ (i 2).val
      ∧ (i 2).val < win0_3.index ⟨8 * (i 0).val + 7, hlt⟩ (2 : Fin 3) * 1 + 1
    rw [e2]; omega

/-- The result array after the run. -/
theorem final_cells (c : Dev nD) : (dats m 0 c).arrAt 3 cfg0.N = cellsOut m c :=
  (dats m 0 c).arrAt_eq_of_cover 3 (cellsOut m c) (flushed_eq m c) (cover c)

end Cert.KernelIdeal.ArrayValue

end
-- ==== Proof.Tail.lean ====
/-
  The kernel's result. After the region the host sums the two cells of the result array and divides by 65536; with
  each cell the sum of its half's tile sums, that is the mean of the 65536 row losses.
-/
import proofs.«125136_j57380763074766_2_alg».proof.Proof.Accumulate
import proofs.«125136_j57380763074766_2_alg».proof.Proof.Gen.KernelIdeal.Frame
import Idealize.ShloMosaic.Lib.StableHlo.Run
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.ResultValue

open Cert.KernelIdeal Cert.KernelIdeal.Gen Cert.KernelIdeal.ArrayValue Cert.Triplet

variable (m : (ℓ : Loc nD τ sig) → Buf (Elt Ideal) ℓ) (ρ : Dev nD → PrngReg)

/-- The two cells of the result array are indexed by their first coordinate. -/
def cellEquiv : S2x1x1.Idx ≃ Fin 2 where
  toFun j := j 0
  invFun a := ix3 a (0 : Fin 1) (0 : Fin 1)
  left_inv j := by
    funext b
    apply Fin.ext
    match b with
    | ⟨0, _⟩ => rfl
    | ⟨1, _⟩ => have h : (j 1).val < 1 := (j 1).isLt; show 0 = (j 1).val; omega
    | ⟨2, _⟩ => have h : (j 2).val < 1 := (j 2).isLt; show 0 = (j 2).val; omega
  right_inv _ := rfl

/-- The host's sum over every cell, from zero, then the quotient by 65536, read at the result's one index. -/
theorem tail_at (v : FVec Ideal S2x1x1 .f32) (i : S_.Idx) :
    Host.divf (F := Ideal)
        (Host.reduceAdd (F := Ideal) v (constant (F := Ideal) S_ .f32 0x00000000#32) reducesTo_S2x1x1_S_d0_1_2 h_S_)
        (constant (F := Ideal) S_ .f32 0x47800000#32) i
      = Ideal.div (∑ j : S2x1x1.Idx, v j) (Ideal.ofBits .f32 0x47800000#32) := by
  have e : Host.reduceAdd (F := Ideal) v (constant (F := Ideal) S_ .f32 0x00000000#32) reducesTo_S2x1x1_S_d0_1_2 h_S_ i
      = Ideal.ofBits .f32 0x00000000#32 + ∑ j : S2x1x1.Idx, v j := by
    simp only [Host.reduceAdd, Ideal.hostReduceAdd_def]
    exact Ideal.hostReduceAdd_total reducesTo_S2x1x1_S_d0_1_2 (fun b => b.elim0) v _ i
  show Ideal.div
      (Host.reduceAdd (F := Ideal) v (constant (F := Ideal) S_ .f32 0x00000000#32) reducesTo_S2x1x1_S_d0_1_2 h_S_ i)
      (Ideal.ofBits .f32 0x47800000#32) = _
  rw [e, Ideal.ofBits_zero_f32, zero_add]

/-- The two cells add up to the sum of all row losses. -/
theorem sum_cells (c : Dev nD) :
    ∑ j : S2x1x1.Idx, cellsOut m c j = ∑ r : Fin 65536, lossAt (argA m c) (argP m c) (argN m c) r := by
  rw [← Equiv.sum_comp cellEquiv.symm (cellsOut m c)]
  show ∑ a : Fin 2, (0 + ∑ s ∈ Finset.range 8, tileTotal (argA m c) (argP m c) (argN m c) (8 * a.val + s)) = _
  simp only [zero_add]
  exact sum_halves_tiles (argA m c) (argP m c) (argN m c)

/-- What the host operations after the region leave in the result buffer: the mean loss of the argument batches. -/
theorem tail_eq (c : Dev nD) :
    Pipeline.afterTail₀ cfgs (dats m) 0 (V0 m) [hostOps1] c main_v2
      = fun _ => meanLoss (argA m c) (argP m c) (argN m c) := by
  unfold Pipeline.afterTail₀
  show StableHlo.after hostOps1 _ (Proc.devRef .tc main_v2) = _
  after_results
  rw [(Pipeline.withArrays_arr spec0 launch0.win.arr_inj c _ _ 3).trans (final_cells m c)]
  funext i
  refine (tail_at (cellsOut m c) i).trans ?_
  unfold meanLoss
  rw [sum_cells]

/-- The kernel's run, read: every weakly fair execution ends with the result buffer at the mean loss of the
    argument batches and the arguments unchanged. -/
theorem run : θ_run defs (onTc (τ := τ) (main (F := Ideal))) ⟨m, fun _ => 0, ρ⟩ fun r => ∀ c : Dev nD,
      r.2.mem ((c.tc : Thread nD τ).loc main_v2) = (fun _ => meanLoss (argA m c) (argP m c) (argN m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v2 (Pipeline.mem_restRefs_of main_v2 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.ResultValue

end
-- ==== Proof.lean ====
/-
  The kernel computes the adaptive triplet margin loss of three batches of 65536 rows of 256 entries, averaged over
  the batch, and so does the reference; at the extended reals the two results are equal.

  Per row both programs compute the same loss of the same three Euclidean distances, with the same constants. They
  differ only in how the 65536 row losses are added up: the reference adds them all at once, the kernel adds the
  4096 rows of a tile, accumulates eight tiles in one cell per half of the batch, and the host adds the two cells.
  Addition of extended reals is commutative and associative, so the two sums agree whatever the losses are, and
  both are divided by the same 65536. The precondition (finite inputs) is not needed for the equality.

  The modules: RowLoss (the loss as functions of extended reals), LibRangeBlocks and Regroup (the regrouping of the
  sum), RefIsSpec (the reference is the mean loss), BodyValue and PayloadAt (what one grid point does to its cell),
  Accumulate (the cells of the kernel's result array), Tail (the kernel's result). The frames and the two programs'
  runs are the generated modules'; no operation of the kernel is rewritten for its reading over the extended reals, so
  the claim relating the kernel to that reading is trivial.
-/
import proofs.«125136_j57380763074766_2_alg».proof.Defs
import proofs.«125136_j57380763074766_2_alg».proof.Proof.Gen.Kernel
import proofs.«125136_j57380763074766_2_alg».proof.Proof.Gen.Kernel.Skeleton
import proofs.«125136_j57380763074766_2_alg».proof.Proof.Gen.Kernel.Launch
import proofs.«125136_j57380763074766_2_alg».proof.Proof.Gen.Kernel.Points
import proofs.«125136_j57380763074766_2_alg».proof.Proof.Gen.Kernel.Frame
import proofs.«125136_j57380763074766_2_alg».proof.Proof.Gen.KernelIdeal
import proofs.«125136_j57380763074766_2_alg».proof.Proof.Gen.KernelIdeal.Skeleton
import proofs.«125136_j57380763074766_2_alg».proof.Proof.Gen.KernelIdeal.Launch
import proofs.«125136_j57380763074766_2_alg».proof.Proof.Gen.KernelIdeal.Points
import proofs.«125136_j57380763074766_2_alg».proof.Proof.Gen.KernelIdeal.Frame
import proofs.«125136_j57380763074766_2_alg».proof.Proof.Gen.ReferenceIdeal
import proofs.«125136_j57380763074766_2_alg».proof.Proof.Gen.ReferenceIdeal.Run
import proofs.«125136_j57380763074766_2_alg».proof.Proof.Gen.ReferenceIdeal.Read
import proofs.«125136_j57380763074766_2_alg».proof.Proof.Gen.Pre_finite_inputs
import proofs.«125136_j57380763074766_2_alg».proof.Proof.RefIsSpec
import proofs.«125136_j57380763074766_2_alg».proof.Proof.Tail
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel is rewritten for its reading over the extended reals. -/
theorem preserves : Cert.preserves_Kernel_KernelIdeal := trivial

/-- From memories that agree on the three batches, the kernel ends at the mean loss of its batches and the reference
    at the mean loss of its own: the same extended real. -/
theorem algebraic : Cert.algebraic_KernelIdeal_ReferenceIdeal := by
  intro m ρ m' ρ' _ hagree
  refine ⟨_, Cert.KernelIdeal.ResultValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.RefValue.result_eq, (hagree c).1, (hagree c).2.1,
    (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
